-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256x2 : Shape := ⟨3, ![8192, 256, 2]⟩
abbrev S_ : Shape := ⟨0, ![]⟩

class Facts : Prop where
  bcast_S_S8192x256x2 : S_.BroadcastsInDim S8192x256x2 (![] : Fin 0 → Fin S8192x256x2.rank)
  reducesTo_S8192x256x2_S_d0_1_2 : S8192x256x2.ReducesTo [0, 1, 2] S_
  h_S_ : 0 < S_.numel

variable [Facts]

def fn {F : FTy → Type} [FloatOps F] (main_arg0 : FVec F S8192x256x2 .f32) (main_arg1 : FVec F S8192x256x2 .f32) : IVec S_ 1 :=
  let main_v0 : FVec F S8192x256x2 .f32 := Host.absf main_arg0
  let main_cst : FVec F S_ .f32 := constant S_ .f32 0x7F800000#32
  let main_v1 : FVec F S8192x256x2 .f32 := broadcastInDim S8192x256x2 ![] bcast_S_S8192x256x2 main_cst
  let main_v2 : IVec S8192x256x2 1 := cmpf .olt main_v0 main_v1
  let main_c : IVec S_ 1 := constantI S_ 1 1#1
  let main_v3 : IVec S_ 1 := (fun x v => Host.reduce IntOp.andi x v reducesTo_S8192x256x2_S_d0_1_2 h_S_) main_v2 main_c
  let main_v4 : FVec F S8192x256x2 .f32 := Host.absf main_arg1
  let main_cst_0 : FVec F S_ .f32 := constant S_ .f32 0x7F800000#32
  let main_v5 : FVec F S8192x256x2 .f32 := broadcastInDim S8192x256x2 ![] bcast_S_S8192x256x2 main_cst_0
  let main_v6 : IVec S8192x256x2 1 := cmpf .olt main_v4 main_v5
  let main_c_1 : IVec S_ 1 := constantI S_ 1 1#1
  let main_v7 : IVec S_ 1 := (fun x v => Host.reduce IntOp.andi x v reducesTo_S8192x256x2_S_d0_1_2 h_S_) main_v6 main_c_1
  let main_v8 : IVec S_ 1 := andi main_v3 main_v7
  main_v8
-- ==== Kernel.lean ====
abbrev S8192x256x2 : Shape := ⟨3, ![8192, 256, 2]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x128 : Shape := ⟨2, ![8192, 128]⟩
abbrev S1024x512 : Shape := ⟨2, ![1024, 512]⟩
abbrev S1024x1 : Shape := ⟨2, ![1024, 1]⟩
abbrev S1x1024 : Shape := ⟨2, ![1, 1024]⟩
abbrev S1024x128 : Shape := ⟨2, ![1024, 128]⟩
abbrev S512x1024 : Shape := ⟨2, ![512, 1024]⟩
abbrev S1024x1024 : Shape := ⟨2, ![1024, 1024]⟩

abbrev nBuf : Space → Nat
  | .hbm => 19
  | .vmem => 11
  | .smem => 0
  | _ => 0

abbrev bufTy : (tb : Table) → Fin (tcTables nBuf tb) → BufTy
  | .hbm, ⟨0, _⟩ => ⟨S8192x256x2, .f32⟩
  | .hbm, ⟨1, _⟩ => ⟨S8192x256x2, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x512, .bf16⟩
  | .hbm, ⟨13, _⟩ => ⟨S8192x512, .bf16⟩
  | .hbm, ⟨14, _⟩ => ⟨S8192x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | _, _ => ⟨S8192x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v70 : BitVec 1 := Scalar.cmpi .eq arg1 c7_i32
  let v71 : BitVec 32 := Scalar.extui v70
  let c0_i32_42 : BitVec 32 := 0#32
  let v72 : BitVec 1 := Scalar.cmpi .ne v71 c0_i32_42
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192x256x2_S8192x512 : S8192x256x2.ShapeCasts S8192x512
  reducesTo_S8192x512_S8192_d1 : S8192x512.ReducesTo [1] S8192
  h_S_ : 0 < S_.numel
  bcast_S8192_S8192x1_0 : S8192.BroadcastsInDim S8192x1 (![0] : Fin 1 → Fin S8192x1.rank)
  shapeCasts_S8192_S1x8192 : S8192.ShapeCasts S1x8192
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1024x512_p1_0_S512x1024 : S1024x512.Transposes [1, 0] S512x1024
  broadcasts_S1024x1_S1024x1024 : S1024x1.Broadcasts S1024x1024
  broadcasts_S1x1024_S1024x1024 : S1x1024.Broadcasts S1024x1024
  slices_S1024x1024_o0_0_S1024x128 : S1024x1024.Slices ![0, 0] S1024x128
  slices_S1024x1024_o0_128_S1024x128 : S1024x1024.Slices ![0, 128] S1024x128
  slices_S1024x1024_o0_256_S1024x128 : S1024x1024.Slices ![0, 256] S1024x128
  slices_S1024x1024_o0_384_S1024x128 : S1024x1024.Slices ![0, 384] S1024x128
  slices_S1024x1024_o0_512_S1024x128 : S1024x1024.Slices ![0, 512] S1024x128
  slices_S1024x1024_o0_640_S1024x128 : S1024x1024.Slices ![0, 640] S1024x128
  slices_S1024x1024_o0_768_S1024x128 : S1024x1024.Slices ![0, 768] S1024x128
  slices_S1024x1024_o0_896_S1024x128 : S1024x1024.Slices ![0, 896] S1024x128
  reducesTo_S8192x128_S_d0_1 : S8192x128.ReducesTo [0, 1] S_
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S8192x128.size a
  hwx0_4 : ∀ i : grid0.Coords, EltTy.bits .f32 = 32 ∨ (Rect.block (s := S8192x128) S1024x128.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v8) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256x2 : Shape := ⟨3, ![8192, 256, 2]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x256x2, .f32⟩
  | .hbm, ⟨1, _⟩ => ⟨S8192x256x2, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S512x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S8192x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  shapeCasts_S8192x256x2_S8192x512 : S8192x256x2.ShapeCasts S8192x512
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Pieces.lean ====
import proofs.«160103_j34952443855259_2_alg».proof.Proof.Gen.KernelIdeal.Frame
import Idealize.ShloMosaic.Lib.Pipeline.Value
import Idealize.ShloMosaic.Lib.Tactic

/-!
# What one grid point leaves in the accumulator

At every grid point the body computes a 1024 × 1024 block `d` of distances from its four input blocks and adds the
eight 128-column groups of `d`, first to last, into the 1024 × 128 accumulator. At the first point of a row of the
grid the accumulator is first set to zero; at the last point of a row the accumulator is also copied to the output
block. This file reads those three cases off the stores the body makes: in each of them the last store into the
accumulator overwrites it whole, and every load of the accumulator reads back what the store before it left.
-/

noncomputable section

open Idealize.ShloMosaic Idealize.ShloMosaic.TcCoe Idealize.SL.Sem Idealize.ShloMosaic.Tactic

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- The accumulator `acc` with the eight 128-column groups of `d` added to it, first to last. -/
def addGroups (acc : Vec F S1024x128 .f32) (d : FVec F S1024x1024 .f32) : FVec F S1024x128 .f32 :=
  addf (addf (addf (addf (addf (addf (addf (addf acc
    (extractStridedSlice S1024x128 ![0, 0] d slices_S1024x1024_o0_0_S1024x128))
    (extractStridedSlice S1024x128 ![0, 128] d slices_S1024x1024_o0_128_S1024x128))
    (extractStridedSlice S1024x128 ![0, 256] d slices_S1024x1024_o0_256_S1024x128))
    (extractStridedSlice S1024x128 ![0, 384] d slices_S1024x1024_o0_384_S1024x128))
    (extractStridedSlice S1024x128 ![0, 512] d slices_S1024x1024_o0_512_S1024x128))
    (extractStridedSlice S1024x128 ![0, 640] d slices_S1024x1024_o0_640_S1024x128))
    (extractStridedSlice S1024x128 ![0, 768] d slices_S1024x1024_o0_768_S1024x128))
    (extractStridedSlice S1024x128 ![0, 896] d slices_S1024x1024_o0_896_S1024x128)

/-- The all-zero accumulator the first point of a grid row starts from. -/
abbrev zeroAcc : Vec F S1024x128 .f32 := broadcast S1024x128 (Scalar.ofBits .f32 0x00000000#32)

/-- The chain of stores, once every load is read back: the accumulator `acc` with the groups of the block of
    distances added. -/
theorem chain_eq (x0 : Vec F S1024x512 .bf16) (x1 : Vec F S1024x512 .bf16) (x2 : Vec F S1024x1 .f32) (x3 : Vec F S1x1024 .f32) (acc : Vec F S1024x128 .f32) :
    k0_pay1 (k0_pay11 (k0_pay3 x0 x1 x2 x3) (k0_pay10 (k0_pay3 x0 x1 x2 x3) (k0_pay9 (k0_pay3 x0 x1 x2 x3)
      (k0_pay8 (k0_pay3 x0 x1 x2 x3) (k0_pay7 (k0_pay3 x0 x1 x2 x3) (k0_pay6 (k0_pay3 x0 x1 x2 x3)
        (k0_pay5 x0 x1 x2 x3 (k0_pay4 x0 x1 x2 x3 acc))))))))
      = addGroups acc (k0_pay3 x0 x1 x2 x3) := by
  unfold k0_pay1 k0_pay11 k0_pay10 k0_pay9 k0_pay8 k0_pay7 k0_pay6 k0_pay5 k0_pay4 addGroups
  simp only [shapeCast_self]

/-- A point in the middle of a grid row: the accumulator it found, with this point's groups added. -/
theorem scratch_B (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1x1024 .f32) (h5 : a5.IsWhole) (a6 : Memref sig .tc .vmem S1024x128 .f32) (h6 : a6.IsWhole) (a7 : Memref sig .tc .vmem S1024x128 .f32) (h7 : a7.IsWhole) (hc0 : ¬cond0_0 i) (hc1 : ¬cond0_1 i)
    (x0 : Vec F S1024x512 .bf16) (x1 : Vec F S1024x512 .bf16) (x2 : Vec F S1024x1 .f32) (x3 : Vec F S1x1024 .f32) (xs0 : Vec F S1024x128 .f32) :
    sout0_B_0 c i a2 h2 a3 h3 a4 h4 a5 h5 a6 h6 a7 h7 hc0 hc1 x0 x1 x2 x3 xs0 = addGroups xs0 (k0_pay3 x0 x1 x2 x3) := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_cons_unit_zero (S := S1024x128) hz]
  simp only [View.readCov_cons_toLoadRect]
  simp only [View.readAt_eq_ld, h2.read_unread, h3.read_unread, h4.read_unread, h5.read_unread, h7.read_unread,
    View.ld_unit_zero (S := S1024x512) hz, View.ld_unit_zero (S := S1024x1) hz, View.ld_unit_zero (S := S1x1024) hz,
    View.ld_unit_zero (S := S1024x128) hz]
  exact chain_eq x0 x1 x2 x3 xs0

/-- The first point of a grid row: the zero accumulator with this point's groups added. -/
theorem scratch_A (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1x1024 .f32) (h5 : a5.IsWhole) (a6 : Memref sig .tc .vmem S1024x128 .f32) (h6 : a6.IsWhole) (a7 : Memref sig .tc .vmem S1024x128 .f32) (h7 : a7.IsWhole) (hc0 : cond0_0 i) (hc1 : ¬cond0_1 i)
    (x0 : Vec F S1024x512 .bf16) (x1 : Vec F S1024x512 .bf16) (x2 : Vec F S1024x1 .f32) (x3 : Vec F S1x1024 .f32) :
    sout0_A_0 c i a2 h2 a3 h3 a4 h4 a5 h5 a6 h6 a7 h7 hc0 hc1 x0 x1 x2 x3 = addGroups zeroAcc (k0_pay3 x0 x1 x2 x3) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1024x128) hz]
  simp only [View.readCov_cons_toLoadRect]
  simp only [View.readAt_eq_ld, h2.read_unread, h3.read_unread, h4.read_unread, h5.read_unread, h7.read_unread,
    View.ld_unit_zero (S := S1024x512) hz, View.ld_unit_zero (S := S1024x1) hz, View.ld_unit_zero (S := S1x1024) hz,
    View.ld_unit_zero (S := S1024x128) hz]
  refine (chain_eq x0 x1 x2 x3 k0_pay2).trans ?_
  unfold k0_pay2
  simp only [shapeCast_self]

/-- The last point of a grid row leaves the accumulator as a middle point does … -/
theorem scratch_C (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1x1024 .f32) (h5 : a5.IsWhole) (a6 : Memref sig .tc .vmem S1024x128 .f32) (h6 : a6.IsWhole) (a7 : Memref sig .tc .vmem S1024x128 .f32) (h7 : a7.IsWhole) (hc0 : ¬cond0_0 i) (hc1 : cond0_1 i)
    (x0 : Vec F S1024x512 .bf16) (x1 : Vec F S1024x512 .bf16) (x2 : Vec F S1024x1 .f32) (x3 : Vec F S1x1024 .f32) (xs0 : Vec F S1024x128 .f32) :
    sout0_C_0 c i a2 h2 a3 h3 a4 h4 a5 h5 a6 h6 a7 h7 hc0 hc1 x0 x1 x2 x3 xs0 = addGroups xs0 (k0_pay3 x0 x1 x2 x3) := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_cons_unit_zero (S := S1024x128) hz]
  simp only [View.readCov_cons_toLoadRect]
  simp only [View.readAt_eq_ld, h2.read_unread, h3.read_unread, h4.read_unread, h5.read_unread, h7.read_unread,
    View.ld_unit_zero (S := S1024x512) hz, View.ld_unit_zero (S := S1024x1) hz, View.ld_unit_zero (S := S1x1024) hz,
    View.ld_unit_zero (S := S1024x128) hz]
  exact chain_eq x0 x1 x2 x3 xs0

/-- … and copies it to the output block. -/
theorem out_C (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1x1024 .f32) (h5 : a5.IsWhole) (a6 : Memref sig .tc .vmem S1024x128 .f32) (h6 : a6.IsWhole) (a7 : Memref sig .tc .vmem S1024x128 .f32) (h7 : a7.IsWhole) (hc0 : ¬cond0_0 i) (hc1 : cond0_1 i)
    (x0 : Vec F S1024x512 .bf16) (x1 : Vec F S1024x512 .bf16) (x2 : Vec F S1024x1 .f32) (x3 : Vec F S1x1024 .f32) (xs0 : Vec F S1024x128 .f32) :
    out0_C_4 c i a2 h2 a3 h3 a4 h4 a5 h5 a6 h6 a7 h7 hc0 hc1 x0 x1 x2 x3 xs0 = addGroups xs0 (k0_pay3 x0 x1 x2 x3) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_cons_unit_zero (S := S1024x128) hz]
  simp only [View.readCov_cons_toLoadRect]
  simp only [View.readAt_eq_ld, h2.read_unread, h3.read_unread, h4.read_unread, h5.read_unread, h7.read_unread,
    View.ld_unit_zero (S := S1024x512) hz, View.ld_unit_zero (S := S1024x1) hz, View.ld_unit_zero (S := S1x1024) hz,
    View.ld_unit_zero (S := S1024x128) hz]
  exact chain_eq x0 x1 x2 x3 xs0

end Cert.KernelIdeal.Acc

end
-- ==== Proof.Accum.lean ====
import proofs.«160103_j34952443855259_2_alg».proof.Proof.Pieces

/-!
# The accumulator after each grid point

The 64 grid points run row by row: point `n` is in grid row `n / 8` at position `n % 8`. The accumulator after
point `n` is the accumulator the point found — zero at the first position of a grid row, what point `n − 1` left
otherwise — with the eight column groups of point `n`'s block of distances added. By induction on the point this
is what the run's carried scratch holds after point `n`, and at the last position of a grid row it is also what the
output block holds.
-/

noncomputable section

open Idealize.ShloMosaic Idealize.ShloMosaic.TcCoe Idealize.SL.Sem

namespace Cert.KernelIdeal.Acc

open Cert.KernelIdeal Cert.KernelIdeal.Gen

variable {F : FTy → Type} [FloatOps F]
variable (m : (ℓ : Loc nD τ sig) → Buf (Elt F) ℓ)

/-- The block of distances grid point `t` computes from its four input blocks. -/
def dblock (c : Dev nD) (t : Fin cfg0.N) : FVec F S1024x1024 .f32 :=
  k0_pay3 (iblk m c 0 t) (iblk m c 1 t) (iblk m c 2 t) (iblk m c 3 t)

/-- The accumulator after point `n`. -/
def accAfter (c : Dev nD) : (n : ℕ) → n < cfg0.N → Vec F S1024x128 .f32
  | 0, h => addGroups zeroAcc (dblock m c ⟨0, h⟩)
  | n + 1, h =>
    addGroups (if (n + 1) % 8 = 0 then zeroAcc else accAfter c n (Nat.lt_of_succ_lt h)) (dblock m c ⟨n + 1, h⟩)

theorem accAfter_succ (c : Dev nD) (n : ℕ) (h : n + 1 < cfg0.N) :
    accAfter m c (n + 1) h
      = addGroups (if (n + 1) % 8 = 0 then zeroAcc else accAfter m c n (Nat.lt_of_succ_lt h)) (dblock m c ⟨n + 1, h⟩) := rfl

theorem fst_of_eq {α β : Type} {p : α × β} {a : α} {b : β} (h : p = (a, b)) : p.1 = a := by rw [h]
theorem snd_of_eq {α β : Type} {p : α × β} {a : α} {b : β} (h : p = (a, b)) : p.2 = b := by rw [h]

/-- The first position of a grid row: the scratch ends at the zero accumulator plus this point's groups. -/
theorem step_first (c : Dev nD) (t : Fin cfg0.N) (h0 : t.val % 8 = 0) (h1 : ¬t.val % 8 = 7) :
    (outsAt0 m c t.val t.isLt).2 = addGroups zeroAcc (dblock m c t) :=
  (snd_of_eq (outsAt0_A m c t h0 h1)).trans
    (scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t))

/-- A middle position: what the point before left, plus this point's groups. -/
theorem step_middle (c : Dev nD) (t : Fin cfg0.N) (h0 : ¬t.val % 8 = 0) (h1 : ¬t.val % 8 = 7) :
    (outsAt0 m c t.val t.isLt).2 = addGroups (outsAt0 m c (t.val - 1) (Nat.lt_of_le_of_lt (Nat.sub_le _ _) t.isLt)).2 (dblock m c t) :=
  (snd_of_eq (outsAt0_B m c t h0 h1)).trans
    (scratch_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2)

/-- The last position: the same in the scratch … -/
theorem step_last (c : Dev nD) (t : Fin cfg0.N) (h0 : ¬t.val % 8 = 0) (h1 : t.val % 8 = 7) :
    (outsAt0 m c t.val t.isLt).2 = addGroups (outsAt0 m c (t.val - 1) (Nat.lt_of_le_of_lt (Nat.sub_le _ _) t.isLt)).2 (dblock m c t) :=
  (snd_of_eq (outsAt0_C m c t h0 h1)).trans
    (scratch_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2)

/-- … and in the output block. -/
theorem step_last_out (c : Dev nD) (t : Fin cfg0.N) (h0 : ¬t.val % 8 = 0) (h1 : t.val % 8 = 7) :
    (outsAt0 m c t.val t.isLt).1 = addGroups (outsAt0 m c (t.val - 1) (Nat.lt_of_le_of_lt (Nat.sub_le _ _) t.isLt)).2 (dblock m c t) :=
  (fst_of_eq (outsAt0_C m c t h0 h1)).trans
    (out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2)
/-- The carried scratch after point `n` is the accumulator after point `n`. -/
theorem scratch_eq (c : Dev nD) : ∀ (n : ℕ) (h : n < cfg0.N), (outsAt0 m c n h).2 = accAfter m c n h := by
  intro n
  induction n with
  | zero =>
    intro h
    exact step_first m c ⟨0, h⟩ rfl (by dsimp only; omega)
  | succ n ih =>
    intro h
    rw [accAfter_succ]
    by_cases h0 : (n + 1) % 8 = 0
    · rw [if_pos h0]
      exact step_first m c ⟨n + 1, h⟩ h0 (by dsimp only; omega)
    · rw [if_neg h0, ← ih (Nat.lt_of_succ_lt h)]
      by_cases h1 : (n + 1) % 8 = 7
      · exact step_last m c ⟨n + 1, h⟩ h0 h1
      · exact step_middle m c ⟨n + 1, h⟩ h0 h1

/-- At the last position of a grid row the output block holds the accumulator too. -/
theorem out_eq (c : Dev nD) (t : Fin cfg0.N) (h1 : t.val % 8 = 7) :
    (outsAt0 m c t.val t.isLt).1 = accAfter m c t.val t.isLt := by
  obtain ⟨n, h⟩ := t
  cases n with
  | zero => exfalso; dsimp only at h1; omega
  | succ n =>
    have h0 : ¬(n + 1) % 8 = 0 := by dsimp only at h1; omega
    show _ = accAfter m c (n + 1) h
    rw [accAfter_succ, if_neg h0, ← scratch_eq m c n (Nat.lt_of_succ_lt h)]
    exact step_last_out m c ⟨n + 1, h⟩ h0 h1

end Cert.KernelIdeal.Acc

end
-- ==== Proof.Payload.lean ====
import proofs.«160103_j34952443855259_2_alg».proof.Proof.Gen.KernelIdeal.Skeleton
import Idealize.ShloMosaic.Lib.Pipeline.Value
import Idealize.ShloMosaic.Lib.ValueIdx
import Idealize.ShloMosaic.PureOps.Ideal.Laws

/-!
# One entry of a grid point's block of distances

Entry `(p, q)` of the 1024 × 1024 block a grid point computes from its input blocks — 1024 rows of each matrix, the
1024 squared norms of the first as a column, the 1024 squared norms of the second as a row — is the square root of
`(column p + row q) − 2 · ⟨row p of the first block, row q of the second⟩`, clamped below at zero. The second block
enters the matrix product transposed, so the product contracts the two blocks' second axes.
-/

noncomputable section

open scoped BigOperators
open Idealize.ShloMosaic Idealize.ShloMosaic.ValueIdx

namespace Cert.KernelIdeal.Acc

open Cert.KernelIdeal Cert.KernelIdeal.Gen

/-- The column of squared norms spread over the 1024 columns reads, in row `p`, the column's entry `p`. -/
theorem spread_col (x2 : FVec Ideal S1024x1 .f32) (p q : Fin 1024) :
    broadcastTo S1024x1024 x2 broadcasts_S1024x1_S1024x1024 (ix2 p q) = x2 (ix2 p 0) :=
  broadcastTo_apply x2 broadcasts_S1024x1_S1024x1024 (ix2 p q) (ix2 p 0) (fun a => match a with
    | ⟨0, _⟩ => by show p.val = if (1024 : Nat) = 1 then 0 else p.val; rw [if_neg (by decide)]
    | ⟨1, _⟩ => by show (0 : Nat) = if (1 : Nat) = 1 then 0 else q.val; rw [if_pos rfl])

/-- The row of squared norms spread over the 1024 rows reads, in column `q`, the row's entry `q`. -/
theorem spread_row (x3 : FVec Ideal S1x1024 .f32) (p q : Fin 1024) :
    broadcastTo S1024x1024 x3 broadcasts_S1x1024_S1024x1024 (ix2 p q) = x3 (ix2 0 q) :=
  broadcastTo_apply x3 broadcasts_S1x1024_S1024x1024 (ix2 p q) (ix2 0 q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

theorem lhs_row (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

theorem rhs_col (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The matrix product of the first block with the transposed second block, into a zero accumulator: entry
    `(p, q)` is the inner product of row `p` of the first block with row `q` of the second. -/
theorem product_apply (x0 x1 : FVec Ideal S1024x512 .bf16) (p q : Fin 1024) :
    matmul dot_S1024x512_S512x1024_S1024x1024_1_0_0_1_n_n none x0
        (transpose S512x1024 [1, 0] x1 transposes_S1024x512_p1_0_S512x1024) (constant S1024x1024 .f32 0x00000000#32) (ix2 p q)
      = ∑ k : Fin 512, x0 (ix2 p k) * x1 (ix2 q k) := by
  simp only [matmul]
  rw [Ideal.matmul_constant_zero_apply,
    ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q)
      ((contrEquiv1 dot_S1024x512_S512x1024_S1024x1024_1_0_0_1_n_n 512 rfl rfl).symm k) = ix2 p k :=
    funext fun a => Fin.ext (by
      match a with
      | ⟨0, _⟩ => exact lhs_row _ _
      | ⟨1, _⟩ => exact (dot_S1024x512_S512x1024_S1024x1024_1_0_0_1_n_n.lhsIdx_val_of_single rfl _ _).trans hk)
  have er : dot_S1024x512_S512x1024_S1024x1024_1_0_0_1_n_n.rhsIdx (ix2 p q)
      ((contrEquiv1 dot_S1024x512_S512x1024_S1024x1024_1_0_0_1_n_n 512 rfl rfl).symm k) = ix2 k q :=
    funext fun a => Fin.ext (by
      match a with
      | ⟨0, _⟩ => exact (dot_S1024x512_S512x1024_S1024x1024_1_0_0_1_n_n.rhsIdx_val_of_single rfl _ _).trans hk
      | ⟨1, _⟩ => exact rhs_col _ _)
  rw [el, er, transpose_apply [1, 0] x1 transposes_S1024x512_p1_0_S512x1024 (ix2 k q) (ix2 q k) (fun b => match b with
    | ⟨0, _⟩ => rfl
    | ⟨1, _⟩ => rfl)]

/-- THE ENTRY: the block of distances at `(p, q)`. -/
theorem dist_apply (x0 x1 : FVec Ideal S1024x512 .bf16) (x2 : FVec Ideal S1024x1 .f32) (x3 : FVec Ideal S1x1024 .f32)
    (p q : Fin 1024) :
    k0_pay3 (F := Ideal) x0 x1 x2 x3 (ix2 p q)
      = Ideal.sqrt (max ((x2 (ix2 p 0) + x3 (ix2 0 q))
          - Ideal.ofBits .f32 0x40000000#32 * ∑ k : Fin 512, x0 (ix2 p k) * x1 (ix2 q k))
        (Ideal.ofBits .f32 0x00000000#32)) := by
  unfold k0_pay3
  simp only [shapeCast_self]
  show Ideal.sqrt (max ((broadcastTo S1024x1024 x2 broadcasts_S1024x1_S1024x1024 (ix2 p q)
      + broadcastTo S1024x1024 x3 broadcasts_S1x1024_S1024x1024 (ix2 p q))
      - Ideal.ofBits .f32 0x40000000#32 * matmul dot_S1024x512_S512x1024_S1024x1024_1_0_0_1_n_n none x0
        (transpose S512x1024 [1, 0] x1 transposes_S1024x512_p1_0_S512x1024) (constant S1024x1024 .f32 0x00000000#32) (ix2 p q))
      (Ideal.ofBits .f32 0x00000000#32)) = _
  rw [spread_col, spread_row, product_apply]

end Cert.KernelIdeal.Acc

end
-- ==== Proof.Dist.lean ====
import Idealize.ShloMosaic.PureOps.Ideal
import Idealize.ShloMosaic.PureOps.Ideal.Laws
import Idealize.ShloMosaic.Lib.ValueIdx

/-!
# Mean pairwise Euclidean distance: the quantity both programs compute

For two matrices `a`, `b` of 8192 rows and 512 columns, the distance of row `r` of `a` to row `c` of `b` is
`√ max (‖a r‖² + ‖b c‖² − 2 ⟨a r, b c⟩, 0)`. One program sums all 8192 × 8192 distances at once. The other keeps,
for every row `r`, 128 partial sums: partial sum `l` collects the columns congruent to `l` modulo 128, taken
1024 columns at a time and, inside such a group, 128 at a time. Over the extended reals addition is commutative and
associative without side conditions, so the two totals agree; this file states the quantities and proves that.
-/

noncomputable section

open scoped BigOperators

namespace Cert.PairDist

open Idealize.ShloMosaic Idealize.ShloMosaic.ValueIdx

/-- A matrix of extended reals, indexed by a row and a column. -/
abbrev Mat (a b : Nat) : Type := (⟨2, ![a, b]⟩ : Shape).Idx → EReal

/-- The squared norm of row `r`: the zero word plus the sum of the squares of the row's entries. -/
def sqnorm (a : Mat 8192 512) (r : Fin 8192) : EReal :=
  Ideal.ofBits .f32 0x00000000#32 + ∑ k : Fin 512, a (ix2 r k) * a (ix2 r k)

/-- The inner product of row `r` of `a` with row `c` of `b`. -/
def cross (a b : Mat 8192 512) (r c : Fin 8192) : EReal := ∑ k : Fin 512, a (ix2 r k) * b (ix2 c k)

/-- The distance of row `r` of `a` to row `c` of `b`: the square root of the squared distance
    `‖a r‖² + ‖b c‖² − 2 ⟨a r, b c⟩`, clamped below at zero. -/
def dist (a b : Mat 8192 512) (r c : Fin 8192) : EReal :=
  Ideal.sqrt (max ((sqnorm a r + sqnorm b c) - Ideal.ofBits .f32 0x40000000#32 * cross a b r c)
    (Ideal.ofBits .f32 0x00000000#32))

/-- The same distance with the two row numbers as naturals (zero outside the matrix). -/
def distN (a b : Mat 8192 512) (r c : ℕ) : EReal :=
  if h : r < 8192 ∧ c < 8192 then dist a b ⟨r, h.1⟩ ⟨c, h.2⟩ else 0

theorem distN_eq (a b : Mat 8192 512) (r c : Fin 8192) : distN a b r.val c.val = dist a b r c := by
  unfold distN
  rw [dif_pos ⟨r.isLt, c.isLt⟩]

/-- Partial sum `l` of row `r`: the zero word plus, over the eight groups `s` of 1024 columns and the eight
    runs `k` of 128 columns inside a group, the distance to column `1024 s + 128 k + l`. -/
def laneSum (a b : Mat 8192 512) (r l : ℕ) : EReal :=
  Ideal.ofBits .f32 0x00000000#32
    + ∑ s ∈ Finset.range 8, ∑ k ∈ Finset.range 8, distN a b r (1024 * s + 128 * k + l)

/-- A sum over `m · n` consecutive naturals, taken `n` at a time. -/
theorem sum_range_mul {M : Type*} [AddCommMonoid M] (f : ℕ → M) (m n : ℕ) :
    ∑ c ∈ Finset.range (m * n), f c = ∑ s ∈ Finset.range m, ∑ x ∈ Finset.range n, f (n * s + x) := by
  induction m with
  | zero => simp
  | succ m ih =>
    rw [Nat.succ_mul, Finset.sum_range_add, ih, Finset.sum_range_succ, Nat.mul_comm m n]

/-- The columns of one row, regrouped: all 8192 of them are the columns `1024 s + 128 k + l`. -/
theorem sum_cols {M : Type*} [AddCommMonoid M] (f : ℕ → M) :
    ∑ l ∈ Finset.range 128, ∑ s ∈ Finset.range 8, ∑ k ∈ Finset.range 8, f (1024 * s + 128 * k + l)
      = ∑ c ∈ Finset.range 8192, f c := by
  rw [show (8192 : ℕ) = 8 * 1024 from rfl, sum_range_mul f 8 1024, Finset.sum_comm]
  refine Finset.sum_congr rfl fun s _ => ?_
  rw [show (1024 : ℕ) = 8 * 128 from rfl, sum_range_mul (fun x => f (8 * 128 * s + x)) 8 128, Finset.sum_comm]
  refine Finset.sum_congr rfl fun k _ => Finset.sum_congr rfl fun l _ => ?_
  rw [Nat.add_assoc]

/-- THE LAW: the 128 partial sums of every row, all added up, are the sum of all the distances. -/
theorem total_eq (a b : Mat 8192 512) :
    ∑ y : (⟨2, ![8192, 128]⟩ : Shape).Idx, laneSum a b (y 0).val (y 1).val
      = ∑ x : (⟨2, ![8192, 8192]⟩ : Shape).Idx, dist a b (x 0) (x 1) := by
  rw [sum_idx2, sum_idx2]
  refine Finset.sum_congr rfl fun r _ => ?_
  show ∑ l : Fin 128, laneSum a b r.val l.val = ∑ c : Fin 8192, dist a b r c
  rw [Fin.sum_univ_eq_sum_range (fun l => laneSum a b r.val l) 128]
  simp only [laneSum, Ideal.ofBits_zero_f32, zero_add]
  rw [sum_cols (fun c => distN a b r.val c), ← Fin.sum_univ_eq_sum_range (fun c => distN a b r.val c) 8192]
  exact Finset.sum_congr rfl fun c _ => distN_eq a b r c

/-- The mean of all 8192 × 8192 distances: their sum, from the zero word, divided by 2²⁶. -/
def meanDist (a b : Mat 8192 512) : EReal :=
  Ideal.div (Ideal.ofBits .f32 0x00000000#32 + ∑ x : (⟨2, ![8192, 8192]⟩ : Shape).Idx, dist a b (x 0) (x 1))
    (Ideal.ofBits .f32 0x4C800000#32)

end Cert.PairDist

end
-- ==== Proof.Blocks.lean ====
import proofs.«160103_j34952443855259_2_alg».proof.Proof.Accum
import proofs.«160103_j34952443855259_2_alg».proof.Proof.Payload
import proofs.«160103_j34952443855259_2_alg».proof.Proof.Dist
import Idealize.ShloMosaic.Lib.StableHlo.Run
import Idealize.ShloMosaic.PureOps.Ideal.Laws

/-!
# A grid point's block of distances, in terms of the two argument matrices

Before the grid runs, the host flattens each argument to an 8192 × 512 matrix (`X` and `Y` below), takes the
squared norms of the rows of `X` as a column and of the rows of `Y` as a row, and hands the grid the two matrices
(a change of float format, the identity on extended reals) and the two norm arrays. Grid point `t` sits in grid row
`t / 8` at position `t % 8`; its blocks are rows `1024 (t / 8) …` of `X` and of the column of norms, and rows
`1024 (t % 8) …` of `Y` and entries `1024 (t % 8) …` of the row of norms. So entry `(p, q)` of its block of
distances is the distance of row `1024 (t / 8) + p` of `X` to row `1024 (t % 8) + q` of `Y`.
-/

noncomputable section

open scoped BigOperators
open Idealize.ShloMosaic Idealize.ShloMosaic.TcCoe Idealize.SL.Sem Idealize.ShloMosaic.ValueIdx
open Idealize.ShloMosaic.StableHlo

namespace Cert.KernelIdeal.Acc

open Cert.KernelIdeal Cert.KernelIdeal.Gen Cert.PairDist

variable (m : (ℓ : Loc nD τ sig) → Buf (Elt Ideal) ℓ)

/-- The first argument, flattened to 8192 rows of 512 entries. -/
def X (c : Dev nD) : Mat 8192 512 :=
  shapeCast S8192x512 (m ((c.tc : Thread nD τ).loc main_arg0)) shapeCasts_S8192x256x2_S8192x512
/-- The second argument, flattened likewise. -/
def Y (c : Dev nD) : Mat 8192 512 :=
  shapeCast S8192x512 (m ((c.tc : Thread nD τ).loc main_arg1)) shapeCasts_S8192x256x2_S8192x512

/-! ## What the host hands the grid -/

theorem stage_x (c : Dev nD) : (V m c main_v8 : S8192x512.Idx → Ideal .bf16) = X m c := by
  show StableHlo.after hostOps0 (fun b => m (c, b)) (Proc.devRef .tc main_v8) = _
  after_results
  rfl

theorem stage_y (c : Dev nD) : (V m c main_v9 : S8192x512.Idx → Ideal .bf16) = Y m c := by
  show StableHlo.after hostOps0 (fun b => m (c, b)) (Proc.devRef .tc main_v9) = _
  after_results
  rfl

theorem stage_xnorm (c : Dev nD) : (V m c main_v4 : S8192x1.Idx → Ideal .f32)
    = broadcastInDim S8192x1 ![0] bcast_S8192_S8192x1_0
        (Host.reduceAdd (F := Ideal) (mulf (X m c : FVec Ideal S8192x512 .f32) (X m c)) (constant (F := Ideal) S_ .f32 0x00000000#32)
          reducesTo_S8192x512_S8192_d1 h_S_) := by
  show StableHlo.after hostOps0 (fun b => m (c, b)) (Proc.devRef .tc main_v4) = _
  after_results
  rfl

theorem stage_ynorm (c : Dev nD) : (V m c main_v7 : S1x8192.Idx → Ideal .f32)
    = shapeCast S1x8192
        (Host.reduceAdd (F := Ideal) (mulf (Y m c : FVec Ideal S8192x512 .f32) (Y m c)) (constant (F := Ideal) S_ .f32 0x00000000#32)
          reducesTo_S8192x512_S8192_d1 h_S_) shapeCasts_S8192_S1x8192 := by
  show StableHlo.after hostOps0 (fun b => m (c, b)) (Proc.devRef .tc main_v7) = _
  after_results
  rfl

/-- The host's sum over the 512 entries of a row, started from the zero word. -/
theorem rowsum_apply (y0 : FVec Ideal S8192x512 .f32) (r : Fin 8192) :
    Host.reduceAdd (F := Ideal) y0 (constant (F := Ideal) S_ .f32 0x00000000#32) reducesTo_S8192x512_S8192_d1 h_S_ (ix1 r)
      = Ideal.ofBits .f32 0x00000000#32 + ∑ k : Fin 512, y0 (ix2 r k) := by
  simp only [Host.reduceAdd, Ideal.hostReduceAdd_def]
  rw [Ideal.hostReduceAdd_single reducesTo_S8192x512_S8192_d1 (by decide)]
  refine congrArg (_ + ·) (Finset.sum_congr rfl fun k _ => ?_)
  exact congrArg y0 (funext fun a => Fin.ext (by match a with | ⟨0, _⟩ => rfl | ⟨1, _⟩ => rfl))

/-- Entry `r` of the column of norms is the squared norm of row `r` of `X`. -/
theorem xnorm_apply (c : Dev nD) (r : Fin 8192) : (V m c main_v4 : S8192x1.Idx → Ideal .f32) (ix2 r 0) = sqnorm (X m c) r := by
  rw [stage_xnorm]
  refine (broadcastInDim_apply _ bcast_S8192_S8192x1_0 _ (ix2 r 0) (ix1 r) (fun a => match a with
    | ⟨0, _⟩ => by show r.val = if (8192 : Nat) = 1 then 0 else r.val; rw [if_neg (by decide)])).trans ?_
  rw [rowsum_apply]
  rfl

/-- Entry `r` of the row of norms is the squared norm of row `r` of `Y`. -/
theorem ynorm_apply (c : Dev nD) (r : Fin 8192) : (V m c main_v7 : S1x8192.Idx → Ideal .f32) (ix2 0 r) = sqnorm (Y m c) r := by
  rw [stage_ynorm]
  refine (shapeCast_apply _ shapeCasts_S8192_S1x8192 (ix2 0 r) (ix1 r) (by
    rw [Shape.rowMajor_val_one, Shape.rowMajor_val_two]; show r.val = 0 * 8192 + r.val; omega)).trans ?_
  rw [rowsum_apply]
  rfl

/-! ## The blocks a grid point reads -/

/-- Which block of each array grid point `t` works on. -/
theorem block_index : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0)

theorem blk_x (c : Dev nD) (t : Fin cfg0.N) (p : Fin 1024) (k : Fin 512) (hr : 1024 * (t.val / 8) + p.val < 8192) :
    (iblk m c 0 t : FVec Ideal S1024x512 .bf16) (ix2 p k) = X m c (ix2 ⟨1024 * (t.val / 8) + p.val, hr⟩ k) := by
  rw [← stage_x]
  unfold iblk
  rw [View.read_apply]
  show V m c main_v8 (((cfg0.win 0).blk t).view.emb (ix2 p k)) = V m c main_v8 _
  refine congrArg (V m c main_v8) (funext fun a => Fin.ext ?_)
  match a with
  | ⟨0, _⟩ => show win0_0.index t 0 * 1024 + 1 * p.val = 1024 * (t.val / 8) + p.val; rw [(block_index t).1]; omega
  | ⟨1, _⟩ => show win0_0.index t 1 * 512 + 1 * k.val = k.val; rw [(block_index t).2.1]; omega

theorem blk_y (c : Dev nD) (t : Fin cfg0.N) (q : Fin 1024) (k : Fin 512) (hc : 1024 * (t.val % 8) + q.val < 8192) :
    (iblk m c 1 t : FVec Ideal S1024x512 .bf16) (ix2 q k) = Y m c (ix2 ⟨1024 * (t.val % 8) + q.val, hc⟩ k) := by
  rw [← stage_y]
  unfold iblk
  rw [View.read_apply]
  show V m c main_v9 (((cfg0.win 1).blk t).view.emb (ix2 q k)) = V m c main_v9 _
  refine congrArg (V m c main_v9) (funext fun a => Fin.ext ?_)
  match a with
  | ⟨0, _⟩ => show win0_1.index t 0 * 1024 + 1 * q.val = 1024 * (t.val % 8) + q.val; rw [(block_index t).2.2.1]; omega
  | ⟨1, _⟩ => show win0_1.index t 1 * 512 + 1 * k.val = k.val; rw [(block_index t).2.2.2.1]; omega

theorem blk_xnorm (c : Dev nD) (t : Fin cfg0.N) (p : Fin 1024) (hr : 1024 * (t.val / 8) + p.val < 8192) :
    (iblk m c 2 t : FVec Ideal S1024x1 .f32) (ix2 p 0) = sqnorm (X m c) ⟨1024 * (t.val / 8) + p.val, hr⟩ := by
  rw [← xnorm_apply]
  unfold iblk
  rw [View.read_apply]
  show V m c main_v4 (((cfg0.win 2).blk t).view.emb (ix2 p 0)) = V m c main_v4 _
  refine congrArg (V m c main_v4) (funext fun a => Fin.ext ?_)
  match a with
  | ⟨0, _⟩ => show win0_2.index t 0 * 1024 + 1 * p.val = 1024 * (t.val / 8) + p.val; rw [(block_index t).2.2.2.2.1]; omega
  | ⟨1, _⟩ => show win0_2.index t 1 * 1 + 1 * 0 = 0; rw [(block_index t).2.2.2.2.2.1]

theorem blk_ynorm (c : Dev nD) (t : Fin cfg0.N) (q : Fin 1024) (hc : 1024 * (t.val % 8) + q.val < 8192) :
    (iblk m c 3 t : FVec Ideal S1x1024 .f32) (ix2 0 q) = sqnorm (Y m c) ⟨1024 * (t.val % 8) + q.val, hc⟩ := by
  rw [← ynorm_apply]
  unfold iblk
  rw [View.read_apply]
  show V m c main_v7 (((cfg0.win 3).blk t).view.emb (ix2 0 q)) = V m c main_v7 _
  refine congrArg (V m c main_v7) (funext fun a => Fin.ext ?_)
  match a with
  | ⟨0, _⟩ => show win0_3.index t 0 * 1 + 1 * 0 = 0; rw [(block_index t).2.2.2.2.2.2.1]
  | ⟨1, _⟩ => show win0_3.index t 1 * 1024 + 1 * q.val = 1024 * (t.val % 8) + q.val; rw [(block_index t).2.2.2.2.2.2.2.1]; omega

/-- THE BLOCK: entry `(p, q)` of point `t`'s block is the distance of row `1024 (t / 8) + p` of `X` to row
    `1024 (t % 8) + q` of `Y`. -/
theorem dblock_apply (c : Dev nD) (t : Fin cfg0.N) (p q : Fin 1024) :
    dblock m c t (ix2 p q) = distN (X m c) (Y m c) (1024 * (t.val / 8) + p.val) (1024 * (t.val % 8) + q.val) := by
  have hN : t.val < 64 := lt_of_lt_of_eq t.isLt (show cfg0.N = 64 from N_0)
  have hr : 1024 * (t.val / 8) + p.val < 8192 := by have := p.isLt; omega
  have hc : 1024 * (t.val % 8) + q.val < 8192 := by have := q.isLt; omega
  unfold dblock
  refine (dist_apply (iblk m c 0 t) (iblk m c 1 t) (iblk m c 2 t) (iblk m c 3 t) p q).trans ?_
  unfold distN
  rw [dif_pos ⟨hr, hc⟩]
  unfold Cert.PairDist.dist cross
  rw [blk_xnorm m c t p hr, blk_ynorm m c t q hc]
  refine congrArg (fun s => Ideal.sqrt (max ((sqnorm (X m c) ⟨_, hr⟩ + sqnorm (Y m c) ⟨_, hc⟩)
    - Ideal.ofBits .f32 0x40000000#32 * s) (Ideal.ofBits .f32 0x00000000#32))) ?_
  refine Finset.sum_congr rfl fun k _ => ?_
  rw [blk_x m c t p k hr, blk_y m c t q k hc]

end Cert.KernelIdeal.Acc

end
-- ==== Proof.LaneValue.lean ====
import proofs.«160103_j34952443855259_2_alg».proof.Proof.Blocks

/-!
# The accumulator, entry by entry

Adding the eight column groups of a block of distances to the accumulator adds, at row `p` and lane `l`, the
block's entries in row `p` at columns `l`, `128 + l`, …, `896 + l`. So after the point at position `j` of a
grid row the accumulator holds, at `(p, l)`, the zero word plus the distances of row `1024 i + p` of the first
matrix to the rows `1024 s + 128 k + l` of the second, for `s ≤ j` and `k < 8` (`i` the grid row); after the
last position these are all the rows congruent to `l` modulo 128.
-/

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.PairDist

variable (m : (ℓ : Loc nD τ sig) → Buf (Elt Ideal) ℓ)

/-- Column `128 k + l` of a 1024-column block: lane `l` of column group `k`. -/
def grp (k : Fin 8) (l : Fin 128) : Fin 1024 := ⟨128 * k.val + l.val, by have := k.isLt; have := l.isLt; omega⟩

theorem group_0 (d : FVec Ideal S1024x1024 .f32) (p : Fin 1024) (l : Fin 128) :
    extractStridedSlice S1024x128 ![0, 0] d slices_S1024x1024_o0_0_S1024x128 (ix2 p l) = d (ix2 p (grp 0 l)) :=
  extractStridedSlice_apply _ d slices_S1024x1024_o0_0_S1024x128 (ix2 p l) (ix2 p (grp 0 l)) (fun a => match a with
    | ⟨0, _⟩ => by show p.val = 0 + p.val; omega
    | ⟨1, _⟩ => by show 128 * 0 + l.val = 0 + l.val; omega)
theorem group_1 (d : FVec Ideal S1024x1024 .f32) (p : Fin 1024) (l : Fin 128) :
    extractStridedSlice S1024x128 ![0, 128] d slices_S1024x1024_o0_128_S1024x128 (ix2 p l) = d (ix2 p (grp 1 l)) :=
  extractStridedSlice_apply _ d slices_S1024x1024_o0_128_S1024x128 (ix2 p l) (ix2 p (grp 1 l)) (fun a => match a with
    | ⟨0, _⟩ => by show p.val = 0 + p.val; omega
    | ⟨1, _⟩ => by show 128 * 1 + l.val = 128 + l.val; omega)
theorem group_2 (d : FVec Ideal S1024x1024 .f32) (p : Fin 1024) (l : Fin 128) :
    extractStridedSlice S1024x128 ![0, 256] d slices_S1024x1024_o0_256_S1024x128 (ix2 p l) = d (ix2 p (grp 2 l)) :=
  extractStridedSlice_apply _ d slices_S1024x1024_o0_256_S1024x128 (ix2 p l) (ix2 p (grp 2 l)) (fun a => match a with
    | ⟨0, _⟩ => by show p.val = 0 + p.val; omega
    | ⟨1, _⟩ => by show 128 * 2 + l.val = 256 + l.val; omega)
theorem group_3 (d : FVec Ideal S1024x1024 .f32) (p : Fin 1024) (l : Fin 128) :
    extractStridedSlice S1024x128 ![0, 384] d slices_S1024x1024_o0_384_S1024x128 (ix2 p l) = d (ix2 p (grp 3 l)) :=
  extractStridedSlice_apply _ d slices_S1024x1024_o0_384_S1024x128 (ix2 p l) (ix2 p (grp 3 l)) (fun a => match a with
    | ⟨0, _⟩ => by show p.val = 0 + p.val; omega
    | ⟨1, _⟩ => by show 128 * 3 + l.val = 384 + l.val; omega)
theorem group_4 (d : FVec Ideal S1024x1024 .f32) (p : Fin 1024) (l : Fin 128) :
    extractStridedSlice S1024x128 ![0, 512] d slices_S1024x1024_o0_512_S1024x128 (ix2 p l) = d (ix2 p (grp 4 l)) :=
  extractStridedSlice_apply _ d slices_S1024x1024_o0_512_S1024x128 (ix2 p l) (ix2 p (grp 4 l)) (fun a => match a with
    | ⟨0, _⟩ => by show p.val = 0 + p.val; omega
    | ⟨1, _⟩ => by show 128 * 4 + l.val = 512 + l.val; omega)
theorem group_5 (d : FVec Ideal S1024x1024 .f32) (p : Fin 1024) (l : Fin 128) :
    extractStridedSlice S1024x128 ![0, 640] d slices_S1024x1024_o0_640_S1024x128 (ix2 p l) = d (ix2 p (grp 5 l)) :=
  extractStridedSlice_apply _ d slices_S1024x1024_o0_640_S1024x128 (ix2 p l) (ix2 p (grp 5 l)) (fun a => match a with
    | ⟨0, _⟩ => by show p.val = 0 + p.val; omega
    | ⟨1, _⟩ => by show 128 * 5 + l.val = 640 + l.val; omega)
theorem group_6 (d : FVec Ideal S1024x1024 .f32) (p : Fin 1024) (l : Fin 128) :
    extractStridedSlice S1024x128 ![0, 768] d slices_S1024x1024_o0_768_S1024x128 (ix2 p l) = d (ix2 p (grp 6 l)) :=
  extractStridedSlice_apply _ d slices_S1024x1024_o0_768_S1024x128 (ix2 p l) (ix2 p (grp 6 l)) (fun a => match a with
    | ⟨0, _⟩ => by show p.val = 0 + p.val; omega
    | ⟨1, _⟩ => by show 128 * 6 + l.val = 768 + l.val; omega)
theorem group_7 (d : FVec Ideal S1024x1024 .f32) (p : Fin 1024) (l : Fin 128) :
    extractStridedSlice S1024x128 ![0, 896] d slices_S1024x1024_o0_896_S1024x128 (ix2 p l) = d (ix2 p (grp 7 l)) :=
  extractStridedSlice_apply _ d slices_S1024x1024_o0_896_S1024x128 (ix2 p l) (ix2 p (grp 7 l)) (fun a => match a with
    | ⟨0, _⟩ => by show p.val = 0 + p.val; omega
    | ⟨1, _⟩ => by show 128 * 7 + l.val = 896 + l.val; omega)

/-- The groups added, at one entry. -/
theorem addGroups_apply (acc : Vec Ideal S1024x128 .f32) (d : FVec Ideal S1024x1024 .f32) (p : Fin 1024) (l : Fin 128) :
    addGroups (F := Ideal) acc d (ix2 p l) = acc (ix2 p l) + ∑ k : Fin 8, d (ix2 p (grp k l)) := by
  unfold addGroups
  simp only [addf_apply]
  rw [group_0, group_1, group_2, group_3, group_4, group_5, group_6, group_7, Fin.sum_univ_eight]
  simp only [add_assoc]

/-- The distances one grid point contributes to lane `l` of row `r`: those to the rows `1024 s + 128 k + l`. -/
def tile (A B : Mat 8192 512) (r l s : ℕ) : EReal := ∑ k ∈ Finset.range 8, distN A B r (1024 * s + 128 * k + l)

theorem laneSum_eq (A B : Mat 8192 512) (r l : ℕ) :
    laneSum A B r l = Ideal.ofBits .f32 0x00000000#32 + ∑ s ∈ Finset.range 8, tile A B r l s := rfl

/-- One grid point's step, at one entry. -/
theorem step_apply (c : Dev nD) (t : Fin cfg0.N) (acc : Vec Ideal S1024x128 .f32) (p : Fin 1024) (l : Fin 128) :
    addGroups (F := Ideal) acc (dblock m c t) (ix2 p l)
      = acc (ix2 p l) + tile (X m c) (Y m c) (1024 * (t.val / 8) + p.val) l.val (t.val % 8) := by
  rw [addGroups_apply]
  refine congrArg (acc (ix2 p l) + ·) ?_
  unfold tile
  rw [← Fin.sum_univ_eq_sum_range (fun k => distN (X m c) (Y m c) (1024 * (t.val / 8) + p.val) (1024 * (t.val % 8) + 128 * k + l.val)) 8]
  refine Finset.sum_congr rfl fun k _ => ?_
  rw [dblock_apply]
  show distN _ _ _ (1024 * (t.val % 8) + (128 * k.val + l.val)) = _
  rw [Nat.add_assoc]

/-- THE ACCUMULATOR after point `n`, at `(p, l)`. -/
theorem acc_apply (c : Dev nD) : ∀ (n : ℕ) (h : n < cfg0.N) (p : Fin 1024) (l : Fin 128),
    accAfter m c n h (ix2 p l)
      = Ideal.ofBits .f32 0x00000000#32
        + ∑ s ∈ Finset.range (n % 8 + 1), tile (X m c) (Y m c) (1024 * (n / 8) + p.val) l.val s := by
  intro n
  induction n with
  | zero =>
    intro h p l
    show addGroups zeroAcc (dblock m c ⟨0, h⟩) (ix2 p l) = _
    rw [step_apply]
    show Ideal.ofBits .f32 0x00000000#32 + tile (X m c) (Y m c) (1024 * (0 / 8) + p.val) l.val (0 % 8) = _
    simp only [Nat.zero_mod, Nat.zero_div, Nat.zero_add, Finset.sum_range_one]
  | succ n ih =>
    intro h p l
    rw [accAfter_succ, step_apply]
    show _ + tile (X m c) (Y m c) (1024 * ((n + 1) / 8) + p.val) l.val ((n + 1) % 8) = _
    by_cases h0 : (n + 1) % 8 = 0
    · rw [if_pos h0, h0, Finset.sum_range_one]
      rfl
    · have hd : (n + 1) / 8 = n / 8 := by omega
      have hm : (n + 1) % 8 = n % 8 + 1 := by omega
      rw [if_neg h0, ih (Nat.lt_of_succ_lt h) p l, hd, hm, Finset.sum_range_succ _ (n % 8 + 1), add_assoc]

/-- After the last position of grid row `t / 8` the accumulator holds the row's lane sums. -/
theorem acc_last (c : Dev nD) (t : Fin cfg0.N) (h7 : t.val % 8 = 7) (p : Fin 1024) (l : Fin 128) :
    accAfter m c t.val t.isLt (ix2 p l) = laneSum (X m c) (Y m c) (1024 * (t.val / 8) + p.val) l.val := by
  rw [acc_apply, h7, laneSum_eq]

end Cert.KernelIdeal.Acc

end
-- ==== Proof.OutArray.lean ====
import proofs.«160103_j34952443855259_2_alg».proof.Proof.LaneValue
import Idealize.ShloMosaic.Lib.Pipeline.Value
import Idealize.ShloMosaic.Lib.StableHlo.Run

/-!
# What the program returns

The output block of grid row `i` is written back once, after the row's last point, and holds the lane sums of rows
`1024 i …` of the first matrix; the eight blocks tile the 8192 × 128 result of the grid. The host then adds up all
its entries from the zero word and divides by 2²⁶, the number of pairs of rows.
-/

noncomputable section

open scoped BigOperators
open Idealize.ShloMosaic Idealize.ShloMosaic.TcCoe Idealize.SL.Sem Idealize.ShloMosaic.ValueIdx
open Idealize.ShloMosaic.StableHlo

namespace Cert.KernelIdeal.Acc

open Cert.KernelIdeal Cert.KernelIdeal.Gen Cert.PairDist

variable (m : (ℓ : Loc nD τ sig) → Buf (Elt Ideal) ℓ) (ρ : Dev nD → PrngReg)

/-- The grid's result: at row `r` and lane `l` the lane sum of row `r`. -/
def laneArray (c : Dev nD) : S8192x128.Idx → Ideal .f32 := fun y => laneSum (X m c) (Y m c) (y 0).val (y 1).val

/-- What the last point of a grid row writes back is that row's block of the lane sums. -/
theorem flushed_eq (c : Dev nD) (t : Fin cfg0.N) (hf : (cfg0.win 4).flush t = true) :
    (dats m 0 c).flushed 4 t = ((cfg0.win 4).blk t).view.read (Elt Ideal) (laneArray m c) := by
  have h7 : t.val % 8 = 7 := (flush0_4 t).mp hf
  show (cfg0.win 4).cut (grid0.coords t) ((dats m 0 c).after 4 t) = _
  rw [after0_4, out_eq m c t h7]
  funext j
  have hj0 : (j 0).val < 1024 := (j 0).isLt
  have hj1 : (j 1).val < 128 := (j 1).isLt
  show accAfter m c t.val t.isLt j = laneArray m c (((cfg0.win 4).blk t).view.emb j)
  have ej : j = (ix2 (⟨(j 0).val, hj0⟩ : Fin 1024) (⟨(j 1).val, hj1⟩ : Fin 128) : S1024x128.Idx) :=
    funext fun a => by match a with | ⟨0, _⟩ => rfl | ⟨1, _⟩ => rfl
  refine (congrArg (accAfter m c t.val t.isLt) ej).trans ?_
  rw [acc_last m c t h7 ⟨(j 0).val, hj0⟩ ⟨(j 1).val, hj1⟩]
  unfold laneArray
  have e0 : ((((cfg0.win 4).blk t).view.emb j) 0).val = 1024 * (t.val / 8) + (j 0).val := by
    show win0_4.index t 0 * 1024 + 1 * (j 0).val = _
    rw [(block_index t).2.2.2.2.2.2.2.2.1]; omega
  have e1 : ((((cfg0.win 4).blk t).view.emb j) 1).val = (j 1).val := by
    show win0_4.index t 1 * 128 + 1 * (j 1).val = _
    rw [(block_index t).2.2.2.2.2.2.2.2.2]; omega
  rw [e0, e1]

/-- An entry of the result is in point `t`'s block iff each coordinate is in the block's range on its axis. -/
theorem mem_blk (t : Fin cfg0.N) (i : S8192x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v10).slice (win0_4.rect t)).set ↔ _
  rw [View.set_slice_whole, Rect.mem_set_unit]
  exact Iff.rfl

/-- Every entry of the result is in the block some grid row's last point writes back. -/
theorem covered (i : S8192x128.Idx) :
    ∃ t : Fin cfg0.N, (cfg0.win 4).flush t = true ∧ i ∈ ((cfg0.win 4).blk t).view.set := by
  have hi0 : (i 0).val < 8192 := (i 0).isLt
  have hi1 : (i 1).val < 128 := (i 1).isLt
  have hN : cfg0.N = 64 := N_0
  have ht : 8 * ((i 0).val / 1024) + 7 < cfg0.N := by rw [hN]; omega
  refine ⟨⟨8 * ((i 0).val / 1024) + 7, ht⟩, (flush0_4 _).mpr (by show (8 * ((i 0).val / 1024) + 7) % 8 = 7; omega), ?_⟩
  rw [mem_blk]
  have e8 := (block_index ⟨8 * ((i 0).val / 1024) + 7, ht⟩).2.2.2.2.2.2.2.2.1
  have e9 := (block_index ⟨8 * ((i 0).val / 1024) + 7, ht⟩).2.2.2.2.2.2.2.2.2
  intro a
  match a with
  | ⟨0, _⟩ =>
    show win0_4.index ⟨8 * ((i 0).val / 1024) + 7, ht⟩ 0 * 1024 ≤ (i 0).val
      ∧ (i 0).val < win0_4.index ⟨8 * ((i 0).val / 1024) + 7, ht⟩ 0 * 1024 + 1024
    rw [e8]
    show (8 * ((i 0).val / 1024) + 7) / 8 * 1024 ≤ (i 0).val ∧ (i 0).val < (8 * ((i 0).val / 1024) + 7) / 8 * 1024 + 1024
    omega
  | ⟨1, _⟩ =>
    show win0_4.index ⟨8 * ((i 0).val / 1024) + 7, ht⟩ 1 * 128 ≤ (i 1).val
      ∧ (i 1).val < win0_4.index ⟨8 * ((i 0).val / 1024) + 7, ht⟩ 1 * 128 + 128
    rw [e9]
    omega

/-- So the grid's result array ends holding the lane sums. -/
theorem final (c : Dev nD) : (dats m 0 c).arrAt 4 cfg0.N = laneArray m c :=
  (dats m 0 c).arrAt_eq_of_cover 4 (laneArray m c) (flushed_eq m c) covered

/-- What the program returns: all the lane sums added up from the zero word, divided by 2²⁶. -/
def result (c : Dev nD) : S_.Idx → Ideal .f32 :=
  Host.divf (F := Ideal)
    (Host.reduceAdd (F := Ideal) (laneArray m c) (constant (F := Ideal) S_ .f32 0x00000000#32) reducesTo_S8192x128_S_d0_1 h_S_)
    (constant (F := Ideal) S_ .f32 0x4C800000#32)

/-- The host operations after the grid, applied to what the grid left. -/
theorem tail_eq (c : Dev nD) :
    Pipeline.afterTail₀ cfgs (dats m) 0 (V0 m) [hostOps1] c main_v12 = result m c := by
  have hw := (Pipeline.withArrays_arr spec0 launch0.win.arr_inj c (V0 m c)
    (fun w => (dats m 0 c).arrAt w (cfgs 0).N) 4).trans (final m c)
  unfold Pipeline.afterTail₀
  show StableHlo.after hostOps1 _ (Proc.devRef .tc main_v12) = _
  after_results
  exact congrArg (fun a => Host.divf (F := Ideal)
    (Host.reduceAdd (F := Ideal) a (constant (F := Ideal) S_ .f32 0x00000000#32) reducesTo_S8192x128_S_d0_1 h_S_)
    (constant (F := Ideal) S_ .f32 0x4C800000#32)) hw

/-- THE RUN: every weakly fair execution ends with the result buffer at `result` and the arguments as they were. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-- The result is the mean of all the distances. -/
theorem result_eq (c : Dev nD) : result m c = fun _ => meanDist (X m c) (Y m c) := by
  funext i
  unfold result meanDist
  show Ideal.div (Host.reduceAdd (F := Ideal) (laneArray m c) (constant (F := Ideal) S_ .f32 0x00000000#32)
    reducesTo_S8192x128_S_d0_1 h_S_ i) (Ideal.ofBits .f32 0x4C800000#32) = _
  refine congrArg (fun s => Ideal.div s (Ideal.ofBits .f32 0x4C800000#32)) ?_
  simp only [Host.reduceAdd, Ideal.hostReduceAdd_def]
  refine (Ideal.hostReduceAdd_total reducesTo_S8192x128_S_d0_1 (fun b => b.elim0) (laneArray m c) _ i).trans ?_
  refine congrArg (Ideal.ofBits .f32 0x00000000#32 + ·) ?_
  exact total_eq (X m c) (Y m c)

end Cert.KernelIdeal.Acc

end
-- ==== Proof.RefStages.lean ====
import proofs.«160103_j34952443855259_2_alg».proof.Proof.Gen.ReferenceIdeal.Read
import proofs.«160103_j34952443855259_2_alg».proof.Proof.Dist

/-!
# The reference: the mean of all the distances

Read one operation at a time, entry `(r, c)` of the reference's 8192 × 8192 matrix is the distance of row `r` of
the first flattened argument to row `c` of the second: the two squared norms are row sums started from the zero
word, spread along the other axis; the matrix product against the transposed second matrix contracts the two
matrices' second axes. The reference then sums the matrix from the zero word and divides by 2²⁶.
-/

noncomputable section

open scoped BigOperators
open Idealize.ShloMosaic Idealize.ShloMosaic.ValueIdx

namespace Cert.ReferenceIdeal.RefValue

open Cert.ReferenceIdeal Cert.ReferenceIdeal.Read Cert.PairDist

/-- The indices the squared norm of row `r` of the first matrix is summed over. -/
theorem idx_xnorm (j : S8192x8192.Idx) (k : Fin 512) :
    idx_main_v3 (idx_main_v6 (idx_main_v8 j)) k = ix2 (j 0) k :=
  funext fun a => Fin.ext (by match a with | ⟨0, _⟩ => rfl | ⟨1, _⟩ => rfl)

/-- The indices the squared norm of row `c` of the second matrix is summed over. -/
theorem idx_ynorm (j : S8192x8192.Idx) (k : Fin 512) :
    idx_main_v5 (idx_main_v7 (idx_main_v9 j)) k = ix2 (j 1) k :=
  funext fun a => Fin.ext (by match a with | ⟨0, _⟩ => rfl | ⟨1, _⟩ => rfl)

/-- The product's left factor is read in row `r` … -/
theorem idx_lhs (j : S8192x8192.Idx) (k : Fin 512) : lidx_main_v12 j k = ix2 (j 0) k :=
  funext fun a => Fin.ext (by match a with | ⟨0, _⟩ => rfl | ⟨1, _⟩ => rfl)

/-- … and its right factor, through the transpose, in row `c` of the second matrix. -/
theorem idx_rhs (j : S8192x8192.Idx) (k : Fin 512) : idx_main_v11 (ridx_main_v12 j k) = ix2 (j 1) k :=
  funext fun a => Fin.ext (by match a with | ⟨0, _⟩ => rfl | ⟨1, _⟩ => rfl)

/-- An entry of the matrix of distances. -/
theorem dist_entry (x0 x1 : (⟨S8192x256x2, .f32⟩ : BufTy).Contents (Elt Ideal)) (j : S8192x8192.Idx) :
    val_main_v18 (F := Ideal) x0 x1 j = dist (val_main_v0 (F := Ideal) x0) (val_main_v1 (F := Ideal) x1) (j 0) (j 1) := by
  rw [val_main_v18_apply, val_main_v17_apply, val_main_v15_apply, val_main_v16_apply, val_main_cst_2_apply,
    val_main_v10_apply, val_main_v14_apply, val_main_v13_apply, val_main_cst_1_apply, val_main_v12_apply,
    val_main_v8_apply, val_main_v6_apply, val_main_v3_apply, val_main_v9_apply, val_main_v7_apply, val_main_v5_apply,
    val_main_cst_apply, val_main_cst_0_apply]
  simp only [val_main_v2_apply, val_main_v4_apply, val_main_v11_apply, idx_xnorm, idx_ynorm, idx_lhs, idx_rhs,
    Ideal.hostUnary_sqrt_def, Ideal.maximumf_def, Ideal.subf_def, Ideal.addf_def, Ideal.mulf_def, Ideal.ofBits_def]
  rfl

/-- THE REFERENCE'S RESULT: the mean of all the distances between rows of its two flattened arguments. -/
theorem result_eq (x0 x1 : (⟨S8192x256x2, .f32⟩ : BufTy).Contents (Elt Ideal)) :
    val_main_v20 (F := Ideal) x0 x1 = fun _ => meanDist (val_main_v0 (F := Ideal) x0) (val_main_v1 (F := Ideal) x1) := by
  funext i
  rw [val_main_v20_apply, val_main_v19_apply, val_main_cst_3_apply, val_main_cst_4_apply]
  simp only [Ideal.hostDivf_def, Ideal.ofBits_def]
  unfold meanDist
  refine congrArg (fun s => Ideal.div (Ideal.ofBits .f32 0x00000000#32 + s) (Ideal.ofBits .f32 0x4C800000#32)) ?_
  exact Finset.sum_congr rfl fun j _ => dist_entry x0 x1 j

end Cert.ReferenceIdeal.RefValue

end
-- ==== Proof.lean ====
/-
  The mean pairwise distance, two ways. Both programs flatten each argument to an 8192 × 512 matrix and compute,
  for every pair of a row `r` of the first and a row `c` of the second, the distance
  `√ max (‖r‖² + ‖c‖² − 2 ⟨r, c⟩, 0)`; both end by dividing the sum of all the distances by 2²⁶. The reference
  forms the whole 8192 × 8192 matrix and sums it. The kernel walks an 8 × 8 grid of 1024 × 1024 blocks, folding
  each block's eight 128-column groups into a 1024 × 128 accumulator that is reset at the start of a grid row and
  written out at its end; the host sums the resulting 8192 × 128 array. Over the extended reals the two sums hold
  the same terms, and addition there is commutative and associative, so the results are equal
  (Proof/Dist.lean `total_eq`). The idealization rewrote nothing, so `preserves` is trivial.
-/
import proofs.«160103_j34952443855259_2_alg».proof.Defs
import proofs.«160103_j34952443855259_2_alg».proof.Proof.Gen.Kernel
import proofs.«160103_j34952443855259_2_alg».proof.Proof.Gen.Kernel.Skeleton
import proofs.«160103_j34952443855259_2_alg».proof.Proof.Gen.Kernel.Launch
import proofs.«160103_j34952443855259_2_alg».proof.Proof.Gen.Kernel.Points
import proofs.«160103_j34952443855259_2_alg».proof.Proof.Gen.Kernel.Frame
import proofs.«160103_j34952443855259_2_alg».proof.Proof.Gen.KernelIdeal
import proofs.«160103_j34952443855259_2_alg».proof.Proof.Gen.KernelIdeal.Skeleton
import proofs.«160103_j34952443855259_2_alg».proof.Proof.Gen.KernelIdeal.Launch
import proofs.«160103_j34952443855259_2_alg».proof.Proof.Gen.KernelIdeal.Points
import proofs.«160103_j34952443855259_2_alg».proof.Proof.Gen.KernelIdeal.Frame
import proofs.«160103_j34952443855259_2_alg».proof.Proof.Gen.ReferenceIdeal
import proofs.«160103_j34952443855259_2_alg».proof.Proof.Gen.Pre_finite_inputs
import proofs.«160103_j34952443855259_2_alg».proof.Proof.Gen.ReferenceIdeal.Run
import proofs.«160103_j34952443855259_2_alg».proof.Proof.Gen.ReferenceIdeal.Read
import proofs.«160103_j34952443855259_2_alg».proof.Proof.OutArray
import proofs.«160103_j34952443855259_2_alg».proof.Proof.RefStages
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the mean of all the distances between the rows of the two flattened arguments. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Acc.result m c
  rw [Cert.KernelIdeal.Acc.result_eq, Cert.ReferenceIdeal.Read.val_main_v20_eq, Cert.ReferenceIdeal.RefValue.result_eq,
    (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
